-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : IVec S4096x4096 32) (main_arg2 : FVec F S4096x1 .f32) (main_arg3 : FVec F S4096x1 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 15
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S8192x4096, .bf16⟩
  | .hbm, ⟨6, _⟩ => ⟨S4096x4096, .bf16⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x4096, .f32⟩
  | .hbm, ⟨11, _⟩ => ⟨S4096x1, .f32⟩
  | .hbm, ⟨12, _⟩ => ⟨S1x4096, .f32⟩
  | .hbm, ⟨13, _⟩ => ⟨S1x4096, .f32⟩
  | .hbm, ⟨14, _⟩ => ⟨S8192x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  bitsLt_bf16_f32 : FTy.bits .bf16 < FTy.bits .f32
  reducesTo_S8192x4096_S8192_d1 : S8192x4096.ReducesTo [1] S8192
  h_S_ : 0 < S_.numel
  bcast_S8192_S8192x1_0 : S8192.BroadcastsInDim S8192x1 (![0] : Fin 1 → Fin S8192x1.rank)
  shapeCasts_S4096x1_S1x4096 : S4096x1.ShapeCasts S1x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x1 : Shape := ⟨2, ![4096, 1]⟩
abbrev S4096 : Shape := ⟨1, ![4096]⟩
abbrev S1x4096 : Shape := ⟨2, ![1, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .i32⟩
  | .hbm, ⟨2, _⟩ => ⟨S4096x1, .f32⟩
  | .hbm, ⟨3, _⟩ => ⟨S4096x1, .f32⟩
  | .hbm, ⟨4, _⟩ => ⟨S4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S8192x4096, .f32⟩
  | .hbm, ⟨11, _⟩ => ⟨S1x4096, .f32⟩
  | .hbm, ⟨12, _⟩ => ⟨S8192x4096, .f32⟩
  | .hbm, ⟨13, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.CaseLeaves.lean ====
/-
  What one run of the kernel body leaves behind, as values of what it loaded.

  The body keeps a running [1024,1024] accumulator in a scratch buffer that survives from one grid point to the
  next along the contraction axis. Writing acc for what the scratch held on entry, X for the [1024,512] block of
  the left operand and Q for the [1024,512] block of the right operand at the point:
    * at the first point of a run over the contraction axis the scratch is first set to zero, so it ends at
      step(0, X, Q);
    * at every later point it ends at step(acc, X, Q);
    * at the last point the output block is in addition set to finish(step(acc, X, Q), scale row, row sums,
      zero-point-times-scale row, bias row),
  where step is the accumulate-one-block-product payload and finish the rank-one correction payload. Nothing here
  depends on how floats are read: the statements hold at every instance.
-/
import proofs.«152688_j85804856639527_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseLeaves

open Cert.KernelIdeal Cert.KernelIdeal.Gen

variable {F : FTy → Type} [FloatOps F]

/-- The origin of a rank-2 block. -/
theorem origin2 : (![0, 0] : Fin 2 → Nat) = fun _ => 0 := funext fun a => by fin_cases a <;> rfl

/-- A later point that is not the last: the scratch ends at one more block product added to what it held. -/
theorem scratch_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i) (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    sout0_B_0 c i arg3 harg3 arg4 harg4 arg5 harg5 arg6 harg6 arg7 harg7 arg8 harg8 arg9 harg9 arg10 harg10 hc0 hc1 x0 x1 x2 x3 x4 x5 xs0 = k0_pay2 xs0 x0 x1 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero origin2]
  simp only [View.readAt_eq_ld, harg10.read_unread, harg3.read_unread, harg4.read_unread,
    View.ld_unit_zero (S := S1024x1024) origin2, View.ld_unit_zero (S := S1024x512) origin2]

/-- The last point of a run: the scratch again ends at one more block product added to what it held. -/
theorem scratch_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    sout0_C_0 c i arg3 harg3 arg4 harg4 arg5 harg5 arg6 harg6 arg7 harg7 arg8 harg8 arg9 harg9 arg10 harg10 hc0 hc1 x0 x1 x2 x3 x4 x5 xs0 = k0_pay2 xs0 x0 x1 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero origin2]
  simp only [View.readAt_eq_ld, harg10.read_unread, harg3.read_unread, harg4.read_unread,
    View.ld_unit_zero (S := S1024x1024) origin2, View.ld_unit_zero (S := S1024x512) origin2]

/-- The first point of a run: the scratch is zeroed, read back, and ends at the first block product added to zero. -/
theorem scratch_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i) (x0 : Vec F S1024x512 .bf16) (x1 : Vec F S1024x512 .bf16) (x2 : Vec F S1024x1 .f32) (x3 : Vec F S1x1024 .f32) (x4 : Vec F S1x1024 .f32) (x5 : Vec F S1x1024 .f32) :
    sout0_A_0 c i arg3 harg3 arg4 harg4 arg5 harg5 arg6 harg6 arg7 harg7 arg8 harg8 arg9 harg9 arg10 harg10 hc0 hc1 x0 x1 x2 x3 x4 x5 = k0_pay2 (k0_pay1 (F := F)) x0 x1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x512) origin2]

/-- The last point of a run: the output block ends at the rank-one correction of the accumulator the same point has
    just completed. -/
theorem output_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i) (x0 : Vec F S1024x512 .bf16) (x1 : Vec F S1024x512 .bf16) (x2 : Vec F S1024x1 .f32) (x3 : Vec F S1x1024 .f32) (x4 : Vec F S1x1024 .f32) (x5 : Vec F S1x1024 .f32) (xs0 : Vec F S1024x1024 .f32) :
    out0_C_6 c i arg3 harg3 arg4 harg4 arg5 harg5 arg6 harg6 arg7 harg7 arg8 harg8 arg9 harg9 arg10 harg10 hc0 hc1 x0 x1 x2 x3 x4 x5 xs0 = k0_pay3 (k0_pay2 xs0 x0 x1) x3 x2 x4 x5 := by
  unfold out0_C_6
  rw [View.read_writes_eq_canon _ _ _ (cover0_C_6 c i arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero origin2, View.readCov_unit_zero (S := S1024x1024) _ origin2]
  simp only [View.readAt_eq_ld, harg10.read_unread, harg3.read_unread, harg4.read_unread, harg5.read_unread,
    harg6.read_unread, harg7.read_unread, harg8.read_unread,
    View.ld_unit_zero (S := S1024x1024) origin2, View.ld_unit_zero (S := S1024x512) origin2,
    View.ld_unit_zero (S := S1024x1) origin2, View.ld_unit_zero (S := S1x1024) origin2]

end Cert.KernelIdeal.CaseLeaves

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.PayloadAt.lean ====
/-
  The body's two arithmetic payloads read at one entry, over the extended reals.

  step(acc, X, Q) at (a, b) is acc(a, b) + Σ_kk X(a, kk) · Q(b, kk): the matrix unit contracts the second axis of both
  [1024, 512] blocks, into a zero accumulator, and the result is added to acc. The zero block is 0 everywhere. And
  finish(acc, s, u, zs, β) at (a, b) is acc(a, b) · s(0, b) − u(a, 0) · zs(0, b) + β(0, b): the three rows are spread
  down the 1024 rows, the column u across the 1024 columns.
-/
import proofs.«152688_j85804856639527_2_alg».proof.Proof.Gen.KernelIdeal.Skeleton
import proofs.«152688_j85804856639527_2_alg».proof.Proof.LibColumns
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.PayloadAt

open Cert.KernelIdeal Cert.KernelIdeal.Gen

/-- The zero block is zero at every entry. -/
theorem zero_apply (j : S1024x1024.Idx) : k0_pay1 (F := Ideal) j = 0 := by
  unfold k0_pay1
  simp only [shapeCast_self]
  show Ideal.ofBits .f32 0x00000000#32 = 0
  exact Ideal.ofBits_zero_f32

/-- The left operand of the block product at output entry (a, b) and contraction position kk is X(a, kk). -/
theorem lhs_at (a b : Fin 1024) (kk : Fin 512) :
    dot_S1024x512_S1024x512_S1024x1024_1_1_0_0_n_n.lhsIdx (ix2 a b)
      ((contrEquiv1 dot_S1024x512_S1024x512_S1024x1024_1_1_0_0_n_n 512 rfl rfl).symm kk) = ix2 a kk := by
  have hk := contrEquiv1_symm_val dot_S1024x512_S1024x512_S1024x1024_1_1_0_0_n_n 512 rfl rfl kk
  funext d
  apply Fin.ext
  match d with
  | ⟨0, _⟩ =>
    show (dot_S1024x512_S1024x512_S1024x1024_1_1_0_0_n_n.lhsIdx (ix2 a b) _ 0).val = a.val
    unfold DotDims.lhsIdx
    rw [dif_neg (show ¬(0 : Fin S1024x512.rank) ∈ dot_S1024x512_S1024x512_S1024x1024_1_1_0_0_n_n.lhsBatch by decide),
      dif_pos (show (0 : Fin S1024x512.rank) ∈ dot_S1024x512_S1024x512_S1024x1024_1_1_0_0_n_n.lhsNonContracting by decide)]
    rfl
  | ⟨1, _⟩ =>
    exact (dot_S1024x512_S1024x512_S1024x1024_1_1_0_0_n_n.lhsIdx_val_of_single rfl (ix2 a b) _).trans hk

/-- The right operand there is Q(b, kk): both blocks are contracted along their second axis. -/
theorem rhs_at (a b : Fin 1024) (kk : Fin 512) :
    dot_S1024x512_S1024x512_S1024x1024_1_1_0_0_n_n.rhsIdx (ix2 a b)
      ((contrEquiv1 dot_S1024x512_S1024x512_S1024x1024_1_1_0_0_n_n 512 rfl rfl).symm kk) = ix2 b kk := by
  have hk := contrEquiv1_symm_val dot_S1024x512_S1024x512_S1024x1024_1_1_0_0_n_n 512 rfl rfl kk
  funext d
  apply Fin.ext
  match d with
  | ⟨0, _⟩ =>
    show (dot_S1024x512_S1024x512_S1024x1024_1_1_0_0_n_n.rhsIdx (ix2 a b) _ 0).val = b.val
    unfold DotDims.rhsIdx
    rw [dif_neg (show ¬(0 : Fin S1024x512.rank) ∈ dot_S1024x512_S1024x512_S1024x1024_1_1_0_0_n_n.rhsBatch by decide),
      dif_pos (show (0 : Fin S1024x512.rank) ∈ dot_S1024x512_S1024x512_S1024x1024_1_1_0_0_n_n.rhsNonContracting by decide)]
    rfl
  | ⟨1, _⟩ =>
    exact (dot_S1024x512_S1024x512_S1024x1024_1_1_0_0_n_n.rhsIdx_val_of_single rfl (ix2 a b) _).trans hk

/-- One accumulation step at an entry: what was there plus the 512-term dot product of row a of X with row b of Q. -/
theorem step_apply (acc : Vec Ideal S1024x1024 .f32) (X Q : Vec Ideal S1024x512 .bf16) (a b : Fin 1024) :
    k0_pay2 (F := Ideal) acc X Q (ix2 a b) = acc (ix2 a b) + ∑ kk : Fin 512, X (ix2 a kk) * Q (ix2 b kk) := by
  unfold k0_pay2
  simp only [shapeCast_self]
  show acc (ix2 a b) + FloatOps.matmul dot_S1024x512_S1024x512_S1024x1024_1_1_0_0_n_n none X Q
      (constant (F := Ideal) S1024x1024 .f32 0x00000000#32) (ix2 a b) = _
  rw [Ideal.matmul_constant_zero_apply,
    ← Equiv.sum_comp (contrEquiv1 dot_S1024x512_S1024x512_S1024x1024_1_1_0_0_n_n 512 rfl rfl).symm]
  refine congrArg (acc (ix2 a b) + ·) (Finset.sum_congr rfl fun kk _ => ?_)
  rw [lhs_at, rhs_at]

/-- The closing correction at an entry. -/
theorem finish_apply (acc : Vec Ideal S1024x1024 .f32) (s : Vec Ideal S1x1024 .f32) (u : Vec Ideal S1024x1 .f32)
    (zs β : Vec Ideal S1x1024 .f32) (a b : Fin 1024) :
    k0_pay3 (F := Ideal) acc s u zs β (ix2 a b)
      = acc (ix2 a b) * s (ix2 (0 : Fin 1) b) - u (ix2 a (0 : Fin 1)) * zs (ix2 (0 : Fin 1) b) + β (ix2 (0 : Fin 1) b) := by
  unfold k0_pay3
  simp only [shapeCast_self]
  show acc (ix2 a b) * broadcastTo S1024x1024 s broadcasts_S1x1024_S1024x1024 (ix2 a b)
      - broadcastTo S1024x1024 u broadcasts_S1024x1_S1024x1024 (ix2 a b)
        * broadcastTo S1024x1024 zs broadcasts_S1x1024_S1024x1024 (ix2 a b)
      + broadcastTo S1024x1024 β broadcasts_S1x1024_S1024x1024 (ix2 a b) = _
  rw [broadcastTo_1b_ab_apply s, broadcastTo_1b_ab_apply zs, broadcastTo_1b_ab_apply β,
    Cert.LibColumns.broadcastTo_a1_ab_apply u]

end Cert.KernelIdeal.PayloadAt

end
-- ==== Proof.LibBlockSum.lean ====
/-
  Two general facts used to put a blocked contraction back together.

  A sum over nb · bs consecutive naturals is the sum, over the nb blocks, of the bs terms of each block; stated with
  the terms of a block indexed by Fin bs and the whole range by Fin (nb · bs), as matrix products come. And a
  rank-2 array extended by zero to all pairs of naturals, so that offsets computed in ℕ need no bound proofs while
  they are being rearranged: inside the extents the extension is the array.
-/
import Mathlib.Algebra.BigOperators.Fin
import Mathlib.Algebra.BigOperators.Intervals
import Idealize.ShloMosaic.Lib.ValueIdx

noncomputable section

open scoped BigOperators

namespace Cert.LibBlockSum

open Idealize.ShloMosaic Idealize.ShloMosaic.ValueIdx

/-- Block by block over ranges: Σ_{s < nb} Σ_{kk < bs} g (bs · s + kk) = Σ_{k < nb · bs} g k. -/
theorem sum_range_blocks {β : Type*} [AddCommMonoid β] (g : ℕ → β) (bs : ℕ) :
    ∀ nb : ℕ, ∑ s ∈ Finset.range nb, ∑ kk ∈ Finset.range bs, g (bs * s + kk) = ∑ k ∈ Finset.range (nb * bs), g k
  | 0 => by simp
  | nb + 1 => by
    rw [Finset.sum_range_succ, sum_range_blocks g bs nb, Nat.succ_mul, Finset.sum_range_add, Nat.mul_comm bs nb]

/-- The same with each block's terms indexed by Fin bs and the whole by Fin (nb · bs). -/
theorem sum_fin_blocks {β : Type*} [AddCommMonoid β] (g : ℕ → β) (nb bs : ℕ) :
    ∑ s ∈ Finset.range nb, ∑ kk : Fin bs, g (bs * s + kk.val) = ∑ k : Fin (nb * bs), g k.val := by
  rw [Fin.sum_univ_eq_sum_range g (nb * bs), ← sum_range_blocks g bs nb]
  exact Finset.sum_congr rfl fun s _ => Fin.sum_univ_eq_sum_range (fun kk => g (bs * s + kk)) bs

/-- The same with the total count named: n = nb · bs. -/
theorem sum_fin_blocks_eq {β : Type*} [AddCommMonoid β] (g : ℕ → β) (nb bs n : ℕ) (hn : nb * bs = n) :
    ∑ s ∈ Finset.range nb, ∑ kk : Fin bs, g (bs * s + kk.val) = ∑ k : Fin n, g k.val := by
  subst hn
  exact sum_fin_blocks g nb bs

/-- A rank-2 array extended by zero to all of ℕ × ℕ. -/
def ext2 {α : Type*} [Zero α] {n0 n1 : ℕ} (A : (⟨2, ![n0, n1]⟩ : Shape).Idx → α) (r k : ℕ) : α :=
  if h : r < n0 ∧ k < n1 then A (ix2 ⟨r, h.1⟩ ⟨k, h.2⟩) else 0

/-- Inside the extents the extension is the array. -/
theorem ext2_of_lt {α : Type*} [Zero α] {n0 n1 : ℕ} (A : (⟨2, ![n0, n1]⟩ : Shape).Idx → α) {r k : ℕ}
    (hr : r < n0) (hk : k < n1) : ext2 A r k = A (ix2 ⟨r, hr⟩ ⟨k, hk⟩) := dif_pos ⟨hr, hk⟩

/-- At the coordinates of an index the extension is the array at that index. -/
theorem ext2_ix {α : Type*} [Zero α] {n0 n1 : ℕ} (A : (⟨2, ![n0, n1]⟩ : Shape).Idx → α) (p : Fin n0) (k : Fin n1) :
    ext2 A p.val k.val = A (ix2 p k) := ext2_of_lt A p.isLt k.isLt

end Cert.LibBlockSum

end
-- ==== Proof.RegionInputs.lean ====
/-
  What the kernel's region finds in the six arrays it stages, and which entries of them each grid point's blocks are.

  The grid has 256 points; point t stands for the triple (i, j, k) = (t / 32, (t / 8) mod 4, t mod 8): row block i of
  the 8192 rows, column block j of the 4096 output columns, contraction block k of the 4096 contracted positions.
  Before the region the host computes, over the extended reals where a change of float format changes nothing:
    array 0 = x itself;  array 1 = the integer weights as reals;  array 2 = the column of row sums 0 + Σ_k x(p, k);
    array 3 = scale as a row;  array 4 = zero_point · scale as a row;  array 5 = bias as a row.
  At point t the blocks are rows 1024·i… of arrays 0 and 2, rows 1024·j… of array 1, columns 1024·j… of the three rows,
  and contraction positions 512·k… of arrays 0 and 1.
-/
import proofs.«152688_j85804856639527_2_alg».proof.Proof.Gen.KernelIdeal.Frame
import proofs.«152688_j85804856639527_2_alg».proof.Proof.LibBlockSum
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx

namespace Cert.KernelIdeal.RegionInputs

open Cert.KernelIdeal Cert.KernelIdeal.Gen Cert.LibBlockSum

variable (m : (ℓ : Loc nD τ sig) → Buf (Elt Ideal) ℓ)

/-! ## The five arguments, as functions of an index -/

abbrev argX (c : Dev nD) : FVec Ideal S8192x4096 .f32 := m ((c : Thread nD τ).loc main_arg0)
abbrev argQ (c : Dev nD) : IVec S4096x4096 32 := m ((c : Thread nD τ).loc main_arg1)
abbrev argS (c : Dev nD) : FVec Ideal S4096x1 .f32 := m ((c : Thread nD τ).loc main_arg2)
abbrev argZ (c : Dev nD) : FVec Ideal S4096x1 .f32 := m ((c : Thread nD τ).loc main_arg3)
abbrev argB (c : Dev nD) : FVec Ideal S4096 .f32 := m ((c : Thread nD τ).loc main_arg4)

/-- The integer weights read as reals. -/
abbrev weight (c : Dev nD) : FVec Ideal S4096x4096 .bf16 := sitofp .bf16 (argQ m c)

/-- A weight is the real number its 32-bit word denotes, read signed. -/
theorem weight_apply (c : Dev nD) (i : S4096x4096.Idx) : weight m c i = (((argQ m c i).toInt : ℝ) : EReal) := rfl

/-! ## The staged arrays at an entry -/

/-- Array 0 is x: narrowing the float format changes nothing over the extended reals. -/
theorem staged_x (c : Dev nD) : (V m c main_v0 : FVec Ideal S8192x4096 .bf16) = argX m c := by
  dsimp only [Gen.V, Gen.hostOps0]
  after_results <;> rfl

/-- Array 1 is the weights as reals. -/
theorem staged_w (c : Dev nD) : (V m c main_v1 : FVec Ideal S4096x4096 .bf16) = weight m c := by
  dsimp only [Gen.V, Gen.hostOps0]
  after_results <;> rfl

/-- Array 2 at (p, 0) is the sum of row p of x, taken from zero. -/
theorem staged_rowsum (c : Dev nD) (p : Fin 8192) (u : Fin 1) :
    (V m c main_v3 : FVec Ideal S8192x1 .f32) (ix2 p u) = 0 + ∑ k : Fin 4096, argX m c (ix2 p k) := by
  dsimp only [Gen.V, Gen.hostOps0]
  after_results
  refine (broadcastInDim_apply _ bcast_S8192_S8192x1_0 _ (ix2 p u) (ix1 p) (fun a => match a with
    | ⟨0, _⟩ => by show p.val = if (8192 : Nat) = 1 then 0 else p.val; rw [if_neg (by decide)])).trans ?_
  show Ideal.hostReduceAdd reducesTo_S8192x4096_S8192_d1 (argX m c) (Ideal.ofBits .f32 0x00000000#32) (ix1 p) = _
  rw [Ideal.hostReduceAdd_single reducesTo_S8192x4096_S8192_d1 (by decide : S8192x4096.Reduces [1] S8192), Ideal.ofBits_zero_f32]
  refine congrArg (0 + ·) (Finset.sum_congr rfl fun k _ => congrArg (argX m c) ?_)
  funext d
  apply Fin.ext
  match d with
  | ⟨0, _⟩ => rfl
  | ⟨1, _⟩ => rfl

/-- Array 3 at (0, n) is scale(n). -/
theorem staged_scale (c : Dev nD) (n : Fin 4096) (u : Fin 1) :
    (V m c main_v4 : FVec Ideal S1x4096 .f32) (ix2 u n) = argS m c (ix2 n (0 : Fin 1)) := by
  dsimp only [Gen.V, Gen.hostOps0]
  after_results
  show shapeCast S1x4096 (argS m c) shapeCasts_S4096x1_S1x4096 (ix2 u n) = _
  refine shapeCast_apply _ shapeCasts_S4096x1_S1x4096 (ix2 u n) (ix2 n (0 : Fin 1)) ?_
  rw [Shape.rowMajor_val_two, Shape.rowMajor_val_two]
  show n.val * 1 + 0 = u.val * 4096 + n.val
  have := u.isLt; omega

/-- Array 4 at (0, n) is zero_point(n) · scale(n). -/
theorem staged_zs (c : Dev nD) (n : Fin 4096) (u : Fin 1) :
    (V m c main_v6 : FVec Ideal S1x4096 .f32) (ix2 u n) = argZ m c (ix2 n (0 : Fin 1)) * argS m c (ix2 n (0 : Fin 1)) := by
  dsimp only [Gen.V, Gen.hostOps0]
  after_results
  show shapeCast S1x4096 (mulf (argZ m c) (argS m c)) shapeCasts_S4096x1_S1x4096 (ix2 u n) = _
  refine (shapeCast_apply _ shapeCasts_S4096x1_S1x4096 (ix2 u n) (ix2 n (0 : Fin 1)) ?_).trans rfl
  rw [Shape.rowMajor_val_two, Shape.rowMajor_val_two]
  show n.val * 1 + 0 = u.val * 4096 + n.val
  have := u.isLt; omega

/-- Array 5 at (0, n) is bias(n). -/
theorem staged_bias (c : Dev nD) (n : Fin 4096) (u : Fin 1) :
    (V m c main_v7 : FVec Ideal S1x4096 .f32) (ix2 u n) = argB m c (ix1 n) := by
  dsimp only [Gen.V, Gen.hostOps0]
  after_results
  show shapeCast S1x4096 (argB m c) shapeCasts_S4096_S1x4096 (ix2 u n) = _
  exact shapeCast_a_1a_apply _ shapeCasts_S4096_S1x4096 u n

/-! ## The index maps, decided once over the 256 points -/

theorem at_x : ∀ t : Fin cfg0.N, win0_0.index t (0 : Fin 2) = t.val / 32 ∧ win0_0.index t (1 : Fin 2) = t.val % 8 :=
  (by decide +kernel : ∀ t : Fin grid0.N, _)
theorem at_w : ∀ t : Fin cfg0.N, win0_1.index t (0 : Fin 2) = (t.val / 8) % 4 ∧ win0_1.index t (1 : Fin 2) = t.val % 8 :=
  (by decide +kernel : ∀ t : Fin grid0.N, _)
theorem at_rowsum : ∀ t : Fin cfg0.N, win0_2.index t (0 : Fin 2) = t.val / 32 ∧ win0_2.index t (1 : Fin 2) = 0 :=
  (by decide +kernel : ∀ t : Fin grid0.N, _)
theorem at_scale : ∀ t : Fin cfg0.N, win0_3.index t (0 : Fin 2) = 0 ∧ win0_3.index t (1 : Fin 2) = (t.val / 8) % 4 :=
  (by decide +kernel : ∀ t : Fin grid0.N, _)
theorem at_zs : ∀ t : Fin cfg0.N, win0_4.index t (0 : Fin 2) = 0 ∧ win0_4.index t (1 : Fin 2) = (t.val / 8) % 4 :=
  (by decide +kernel : ∀ t : Fin grid0.N, _)
theorem at_bias : ∀ t : Fin cfg0.N, win0_5.index t (0 : Fin 2) = 0 ∧ win0_5.index t (1 : Fin 2) = (t.val / 8) % 4 :=
  (by decide +kernel : ∀ t : Fin grid0.N, _)
theorem at_out : ∀ t : Fin cfg0.N, win0_6.index t (0 : Fin 2) = t.val / 32 ∧ win0_6.index t (1 : Fin 2) = (t.val / 8) % 4 :=
  (by decide +kernel : ∀ t : Fin grid0.N, _)
/-- The output block is written back exactly at the last point of each run over the contraction axis. -/
theorem writes_back : ∀ t : Fin cfg0.N, (cfg0.win 6).flush t = decide (t.val % 8 = 7) :=
  (by decide +kernel : ∀ t : Fin grid0.N, _)

/-! ## Each window's block at a point, entry by entry -/

/-- Entry (y0, y1) of x's block at point t is array 0 at row 1024·(t/32) + y0, position 512·(t mod 8) + y1. -/
theorem block_x (c : Dev nD) (t : Fin cfg0.N) (y0 : Fin 1024) (y1 : Fin 512) (i : S8192x4096.Idx)
    (h0 : (i 0).val = 1024 * (t.val / 32) + y0.val) (h1 : (i 1).val = 512 * (t.val % 8) + y1.val) :
    (iblk m c 0 t : Vec Ideal S1024x512 .bf16) (ix2 y0 y1) = (V m c main_v0 : S8192x4096.Idx → _) i := by
  unfold iblk
  rw [View.read_apply]
  show V m c main_v0 _ = V m c main_v0 _
  congr 1
  funext d
  apply Fin.ext
  match d with
  | ⟨0, _⟩ =>
    show win0_0.index t (0 : Fin 2) * 1024 + 1 * y0.val = (i 0).val
    rw [(at_x t).1, h0]; omega
  | ⟨1, _⟩ =>
    show win0_0.index t (1 : Fin 2) * 512 + 1 * y1.val = (i 1).val
    rw [(at_x t).2, h1]; omega

/-- Entry (y0, y1) of the weights' block at point t is array 1 at row 1024·((t/8) mod 4) + y0, position 512·(t mod 8) + y1. -/
theorem block_w (c : Dev nD) (t : Fin cfg0.N) (y0 : Fin 1024) (y1 : Fin 512) (i : S4096x4096.Idx)
    (h0 : (i 0).val = 1024 * ((t.val / 8) % 4) + y0.val) (h1 : (i 1).val = 512 * (t.val % 8) + y1.val) :
    (iblk m c 1 t : Vec Ideal S1024x512 .bf16) (ix2 y0 y1) = (V m c main_v1 : S4096x4096.Idx → _) i := by
  unfold iblk
  rw [View.read_apply]
  show V m c main_v1 _ = V m c main_v1 _
  congr 1
  funext d
  apply Fin.ext
  match d with
  | ⟨0, _⟩ =>
    show win0_1.index t (0 : Fin 2) * 1024 + 1 * y0.val = (i 0).val
    rw [(at_w t).1, h0]; omega
  | ⟨1, _⟩ =>
    show win0_1.index t (1 : Fin 2) * 512 + 1 * y1.val = (i 1).val
    rw [(at_w t).2, h1]; omega

/-- Entry (y0, 0) of the row-sum block at point t is array 2 at row 1024·(t/32) + y0. -/
theorem block_rowsum (c : Dev nD) (t : Fin cfg0.N) (y0 : Fin 1024) (y1 : Fin 1) (i : S8192x1.Idx)
    (h0 : (i 0).val = 1024 * (t.val / 32) + y0.val) (h1 : (i 1).val = y1.val) :
    (iblk m c 2 t : Vec Ideal S1024x1 .f32) (ix2 y0 y1) = (V m c main_v3 : S8192x1.Idx → _) i := by
  unfold iblk
  rw [View.read_apply]
  show V m c main_v3 _ = V m c main_v3 _
  congr 1
  funext d
  apply Fin.ext
  match d with
  | ⟨0, _⟩ =>
    show win0_2.index t (0 : Fin 2) * 1024 + 1 * y0.val = (i 0).val
    rw [(at_rowsum t).1, h0]; omega
  | ⟨1, _⟩ =>
    show win0_2.index t (1 : Fin 2) * 1 + 1 * y1.val = (i 1).val
    rw [(at_rowsum t).2, h1]; omega

/-- Entry (0, y1) of the scale row's block at point t is array 3 at column 1024·((t/8) mod 4) + y1. -/
theorem block_scale (c : Dev nD) (t : Fin cfg0.N) (y0 : Fin 1) (y1 : Fin 1024) (i : S1x4096.Idx)
    (h0 : (i 0).val = y0.val) (h1 : (i 1).val = 1024 * ((t.val / 8) % 4) + y1.val) :
    (iblk m c 3 t : Vec Ideal S1x1024 .f32) (ix2 y0 y1) = (V m c main_v4 : S1x4096.Idx → _) i := by
  unfold iblk
  rw [View.read_apply]
  show V m c main_v4 _ = V m c main_v4 _
  congr 1
  funext d
  apply Fin.ext
  match d with
  | ⟨0, _⟩ =>
    show win0_3.index t (0 : Fin 2) * 1 + 1 * y0.val = (i 0).val
    rw [(at_scale t).1, h0]; omega
  | ⟨1, _⟩ =>
    show win0_3.index t (1 : Fin 2) * 1024 + 1 * y1.val = (i 1).val
    rw [(at_scale t).2, h1]; omega

/-- Entry (0, y1) of the zero-point-times-scale row's block at point t is array 4 at column 1024·((t/8) mod 4) + y1. -/
theorem block_zs (c : Dev nD) (t : Fin cfg0.N) (y0 : Fin 1) (y1 : Fin 1024) (i : S1x4096.Idx)
    (h0 : (i 0).val = y0.val) (h1 : (i 1).val = 1024 * ((t.val / 8) % 4) + y1.val) :
    (iblk m c 4 t : Vec Ideal S1x1024 .f32) (ix2 y0 y1) = (V m c main_v6 : S1x4096.Idx → _) i := by
  unfold iblk
  rw [View.read_apply]
  show V m c main_v6 _ = V m c main_v6 _
  congr 1
  funext d
  apply Fin.ext
  match d with
  | ⟨0, _⟩ =>
    show win0_4.index t (0 : Fin 2) * 1 + 1 * y0.val = (i 0).val
    rw [(at_zs t).1, h0]; omega
  | ⟨1, _⟩ =>
    show win0_4.index t (1 : Fin 2) * 1024 + 1 * y1.val = (i 1).val
    rw [(at_zs t).2, h1]; omega

/-- Entry (0, y1) of the bias row's block at point t is array 5 at column 1024·((t/8) mod 4) + y1. -/
theorem block_bias (c : Dev nD) (t : Fin cfg0.N) (y0 : Fin 1) (y1 : Fin 1024) (i : S1x4096.Idx)
    (h0 : (i 0).val = y0.val) (h1 : (i 1).val = 1024 * ((t.val / 8) % 4) + y1.val) :
    (iblk m c 5 t : Vec Ideal S1x1024 .f32) (ix2 y0 y1) = (V m c main_v7 : S1x4096.Idx → _) i := by
  unfold iblk
  rw [View.read_apply]
  show V m c main_v7 _ = V m c main_v7 _
  congr 1
  funext d
  apply Fin.ext
  match d with
  | ⟨0, _⟩ =>
    show win0_5.index t (0 : Fin 2) * 1 + 1 * y0.val = (i 0).val
    rw [(at_bias t).1, h0]; omega
  | ⟨1, _⟩ =>
    show win0_5.index t (1 : Fin 2) * 1024 + 1 * y1.val = (i 1).val
    rw [(at_bias t).2, h1]; omega

end Cert.KernelIdeal.RegionInputs

end
-- ==== Proof.Accumulated.lean ====
/-
  The accumulator over one run of the contraction axis, and the output block the run's last point writes.

  Fix a run: the eight points 8r, …, 8r + 7, which share the row block r / 4 and the column block r mod 4 and step
  through the contraction blocks 0, …, 7. Point n adds to entry (a, b) of the accumulator the 512-term dot product
    addend(n, a, b) = Σ_kk x(1024·(n/32) + a, 512·(n mod 8) + kk) · w(1024·((n/8) mod 4) + b, 512·(n mod 8) + kk),
  the first point of the run starting from zero. So after the run the accumulator's entry (a, b) is
    0 + Σ_{s < 8} addend(8r + s, a, b) = 0 + Σ_{k < 4096} x(1024·(r/4) + a, k) · w(1024·(r mod 4) + b, k):
  addition in the extended reals is associative and commutative, which is all that regrouping a sum needs. The run's
  last point then writes the rank-one correction of that accumulator into the output block.
-/
import proofs.«152688_j85804856639527_2_alg».proof.Proof.Gen.KernelIdeal.Value
import proofs.«152688_j85804856639527_2_alg».proof.Proof.CaseLeaves
import proofs.«152688_j85804856639527_2_alg».proof.Proof.PayloadAt
import proofs.«152688_j85804856639527_2_alg».proof.Proof.RegionInputs
import proofs.«152688_j85804856639527_2_alg».proof.Proof.LibBlockSum

noncomputable section

open scoped BigOperators
open Idealize.ShloMosaic Idealize.ShloMosaic.TcCoe Idealize.SL.Sem Idealize.ShloMosaic.ValueIdx

namespace Cert.KernelIdeal.Accumulated

open Cert.KernelIdeal Cert.KernelIdeal.Gen Cert.LibBlockSum Cert.KernelIdeal.RegionInputs

variable (m : (ℓ : Loc nD τ sig) → Buf (Elt Ideal) ℓ)

/-- What point n adds to entry (a, b) of the accumulator. -/
def addend (c : Dev nD) (n a b : ℕ) : EReal :=
  ∑ kk : Fin 512, ext2 (argX m c) (1024 * (n / 32) + a) (512 * (n % 8) + kk.val)
    * ext2 (weight m c) (1024 * ((n / 8) % 4) + b) (512 * (n % 8) + kk.val)

/-- The same as a function of the block entry. -/
def addendAt (c : Dev nD) (n : ℕ) (j : S1024x1024.Idx) : EReal := addend m c n (j 0).val (j 1).val

theorem addendAt_ix2 (c : Dev nD) (n : ℕ) (a b : Fin 1024) : addendAt m c n (ix2 a b) = addend m c n a.val b.val := rfl

/-- The block product of the two blocks staged at point t, at entry (a, b), is that point's addend. -/
theorem blockdot (c : Dev nD) (t : Fin cfg0.N) (a b : Fin 1024) (X Q : Vec Ideal S1024x512 .bf16)
    (hX : X = iblk m c 0 t) (hQ : Q = iblk m c 1 t) :
    ∑ kk : Fin 512, X (ix2 a kk) * Q (ix2 b kk) = addend m c t.val a.val b.val := by
  subst hX hQ
  have hN : t.val < 256 := lt_of_lt_of_eq t.isLt N_0
  unfold addend
  refine Finset.sum_congr rfl fun kk _ => ?_
  have hr : 1024 * (t.val / 32) + a.val < 8192 := by have := a.isLt; omega
  have hk : 512 * (t.val % 8) + kk.val < 4096 := by have := kk.isLt; omega
  have hc : 1024 * ((t.val / 8) % 4) + b.val < 4096 := by have := b.isLt; omega
  rw [ext2_of_lt _ hr hk, ext2_of_lt _ hc hk,
    block_x m c t a kk (ix2 ⟨_, hr⟩ ⟨_, hk⟩) rfl rfl, block_w m c t b kk (ix2 ⟨_, hc⟩ ⟨_, hk⟩) rfl rfl,
    staged_x, staged_w]

/-- The first point of a run leaves zero plus its addend, whatever the scratch held. -/
theorem first_apply (c : Dev nD) (n : ℕ) (hb : n < cfg0.N) (h0 : n % 8 = 0) (acc : Vec Ideal S1024x1024 .f32)
    (j : S1024x1024.Idx) : Value.scAt0_0 m c n hb acc j = 0 + addendAt m c n j := by
  obtain ⟨a, b, rfl⟩ : ∃ (a b : Fin 1024), j = ix2 a b := ⟨j 0, j 1, eq_ix2 j⟩
  have h1 : ¬n % 8 = 7 := by omega
  unfold Value.scAt0_0
  rw [dif_pos h0, dif_neg h1]
  refine (congrFun (CaseLeaves.scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N))) (ix2 a b)).trans ?_
  refine (PayloadAt.step_apply (k0_pay1 (F := Ideal)) (iblk m c 0 (⟨n, hb⟩ : Fin cfg0.N)) (iblk m c 1 (⟨n, hb⟩ : Fin cfg0.N)) a b).trans ?_
  rw [PayloadAt.zero_apply, blockdot m c (⟨n, hb⟩ : Fin cfg0.N) a b (iblk m c 0 (⟨n, hb⟩ : Fin cfg0.N)) (iblk m c 1 (⟨n, hb⟩ : Fin cfg0.N)) rfl rfl, addendAt_ix2]

/-- Every later point of a run leaves what the scratch held plus its addend. -/
theorem later_apply (c : Dev nD) (n : ℕ) (hb : n < cfg0.N) (h0 : ¬n % 8 = 0) (acc : Vec Ideal S1024x1024 .f32)
    (j : S1024x1024.Idx) : Value.scAt0_0 m c n hb acc j = acc j + addendAt m c n j := by
  obtain ⟨a, b, rfl⟩ : ∃ (a b : Fin 1024), j = ix2 a b := ⟨j 0, j 1, eq_ix2 j⟩
  unfold Value.scAt0_0
  rw [dif_neg h0]
  by_cases h1 : n % 8 = 7
  · rw [dif_pos h1]
    refine (congrFun (CaseLeaves.scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 a b)).trans ?_
    refine (PayloadAt.step_apply acc (iblk m c 0 (⟨n, hb⟩ : Fin cfg0.N)) (iblk m c 1 (⟨n, hb⟩ : Fin cfg0.N)) a b).trans ?_
    rw [blockdot m c (⟨n, hb⟩ : Fin cfg0.N) a b (iblk m c 0 (⟨n, hb⟩ : Fin cfg0.N)) (iblk m c 1 (⟨n, hb⟩ : Fin cfg0.N)) rfl rfl, addendAt_ix2]
  · rw [dif_neg h1]
    refine (congrFun (CaseLeaves.scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) acc) (ix2 a b)).trans ?_
    refine (PayloadAt.step_apply acc (iblk m c 0 (⟨n, hb⟩ : Fin cfg0.N)) (iblk m c 1 (⟨n, hb⟩ : Fin cfg0.N)) a b).trans ?_
    rw [blockdot m c (⟨n, hb⟩ : Fin cfg0.N) a b (iblk m c 0 (⟨n, hb⟩ : Fin cfg0.N)) (iblk m c 1 (⟨n, hb⟩ : Fin cfg0.N)) rfl rfl, addendAt_ix2]

/-- The scratch after the point at offset e of the run that starts at 8r: zero plus the addends of the run so far. -/
theorem fold_apply (c : Dev nD) (r e : ℕ) (he : e ≤ 7) (h : 8 * r + e < cfg0.N) (j : S1024x1024.Idx) :
    Pipeline.accAt (fun n h => Value.scAt0_0 m c n h (VS0_0.read (Elt Ideal) VS0_0.junk)) (Value.scAt0_0 m c) (8 * r) e h j
      = 0 + ∑ s ∈ Finset.range (e + 1), addendAt m c (8 * r + s) j :=
  Pipeline.accAt_add_apply (fun n h => Value.scAt0_0 m c n h (VS0_0.read (Elt Ideal) VS0_0.junk)) (Value.scAt0_0 m c)
    (fun _ => 0) (addendAt m c) (8 * r) 7
    (fun hb i => first_apply m c (8 * r) hb (by omega) _ i)
    (fun n hb acc i hlt hle => later_apply m c n hb (by omega) acc i) e he h j

/-- The eight addends of a run are one 4096-term dot product. -/
theorem run_total (c : Dev nD) (r a b : ℕ) :
    ∑ s ∈ Finset.range 8, addend m c (8 * r + s) a b
      = ∑ k : Fin 4096, ext2 (argX m c) (1024 * (r / 4) + a) k.val * ext2 (weight m c) (1024 * (r % 4) + b) k.val := by
  refine Eq.trans (Finset.sum_congr rfl fun s hs => ?_)
    (sum_fin_blocks_eq (fun k => ext2 (argX m c) (1024 * (r / 4) + a) k * ext2 (weight m c) (1024 * (r % 4) + b) k) 8 512 4096 rfl)
  have hs' : s < 8 := Finset.mem_range.mp hs
  unfold addend
  refine Finset.sum_congr rfl fun kk _ => ?_
  rw [show (8 * r + s) / 32 = r / 4 by omega, show ((8 * r + s) / 8) % 4 = r % 4 by omega, show (8 * r + s) % 8 = s by omega]

/-- After the last point of its run the accumulator's entry (a, b) is zero plus the whole dot product of row
    1024·(t/32) + a of x with row 1024·((t/8) mod 4) + b of the weights. -/
theorem scratch_at_last (c : Dev nD) (t : Fin cfg0.N) (ht : t.val % 8 = 7) (a b : Fin 1024) :
    (outsAt0 m c t.val t.isLt).2 (ix2 a b)
      = 0 + ∑ k : Fin 4096, ext2 (argX m c) (1024 * (t.val / 32) + a.val) k.val
          * ext2 (weight m c) (1024 * ((t.val / 8) % 4) + b.val) k.val := by
  have hN : t.val < 256 := lt_of_lt_of_eq t.isLt N_0
  rw [Value.soutsAt0_0_eq m c t, fold_apply m c (t.val / 8) (t.val % 8) (by omega) _ (ix2 a b)]
  have e8 : t.val % 8 + 1 = 8 := by omega
  rw [e8]
  simp only [addendAt_ix2]
  rw [run_total m c (t.val / 8) a.val b.val, show t.val / 8 / 4 = t.val / 32 by omega]

/-- At the last point of a run the output block is the rank-one correction of the accumulator that point completes. -/
theorem out_eq_finish (c : Dev nD) (t : Fin cfg0.N) (ht : t.val % 8 = 7) :
    (outsAt0 m c t.val t.isLt).1
      = k0_pay3 (F := Ideal) (outsAt0 m c t.val t.isLt).2 (iblk m c 3 t) (iblk m c 2 t) (iblk m c 4 t) (iblk m c 5 t) := by
  have h0 : ¬t.val % 8 = 0 := by omega
  rw [outsAt0_C m c t h0 ht]
  dsimp only
  rw [CaseLeaves.output_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr ht) (iblk m c 0 t) (iblk m c 1 t) (iblk m c 2 t) (iblk m c 3 t) (iblk m c 4 t) (iblk m c 5 t) (outsAt0 m c (t.val - 1) (Nat.lt_of_le_of_lt (Nat.sub_le _ _) t.isLt)).2,
    CaseLeaves.scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr ht) (iblk m c 0 t) (iblk m c 1 t) (iblk m c 2 t) (iblk m c 3 t) (iblk m c 4 t) (iblk m c 5 t) (outsAt0 m c (t.val - 1) (Nat.lt_of_le_of_lt (Nat.sub_le _ _) t.isLt)).2]

end Cert.KernelIdeal.Accumulated

end
-- ==== Proof.DequantLaw.lean ====
/-
  The law over the reals that joins the two programs: for reals x_k, q_k and reals z, s,
    Σ_k x_k · ((q_k − z) · s) = (Σ_k x_k · q_k) · s − (Σ_k x_k) · (z · s).
-/
import Mathlib.Algebra.BigOperators.Ring.Finset
import Mathlib.Data.Real.Basic
import Mathlib.Tactic.Ring

namespace Cert.DequantLaw

/-- Dequantizing each weight before the dot product, or correcting the raw dot product by a rank-one term. -/
theorem dot_dequant {ι : Type*} (S : Finset ι) (x q : ι → ℝ) (z s : ℝ) :
    ∑ k ∈ S, x k * ((q k - z) * s) = (∑ k ∈ S, x k * q k) * s - (∑ k ∈ S, x k) * (z * s) := by
  rw [Finset.sum_mul, Finset.sum_mul, ← Finset.sum_sub_distrib]
  exact Finset.sum_congr rfl (fun k _ => by ring)

end Cert.DequantLaw
-- ==== Proof.LibSubDot.lean ====
/-
  The algebra of the two sides. Over the extended reals, with every operand finite, a difference of two dot products
  against the same vector is the dot product of the difference: the operands are real numbers, the coercion from the
  reals commutes with finite sums, products and differences, and in the reals multiplication distributes over
  subtraction under a finite sum.
-/
import Idealize.ShloMosaic.PureOps.Ideal
import Idealize.ShloMosaic.Lib.ValueIdx

noncomputable section

open scoped BigOperators

namespace Cert.Bridge

/-- The coercion from the reals to the extended reals commutes with a finite sum. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Finite operands: the difference of two dot products against w, plus β, is the dot product of the difference, plus β. -/
theorem sub_dot_gen {n : Nat} (a b w : Fin n → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β := by
  choose ar har using ha
  choose br hbr using hb
  choose wr hwr using hw
  have h1 : ∑ k, a k * w k = ((∑ k, ar k * wr k : ℝ) : EReal) := by
    rw [coe_sum]
    exact Finset.sum_congr rfl fun k _ => by rw [har, hwr, EReal.coe_mul]
  have h2 : ∑ k, b k * w k = ((∑ k, br k * wr k : ℝ) : EReal) := by
    rw [coe_sum]
    exact Finset.sum_congr rfl fun k _ => by rw [hbr, hwr, EReal.coe_mul]
  have h3 : ∑ k, (a k - b k) * w k = ((∑ k, (ar k - br k) * wr k : ℝ) : EReal) := by
    rw [coe_sum]
    exact Finset.sum_congr rfl fun k _ => by rw [har, hbr, hwr, ← EReal.coe_sub, EReal.coe_mul]
  rw [h1, h2, h3, ← EReal.coe_sub, ← Finset.sum_sub_distrib]
  refine congrArg (fun t : ℝ => (t : EReal) + β) (Finset.sum_congr rfl fun k _ => ?_)
  rw [sub_mul]

/-- The instance at the 768 feature coordinates. -/
theorem sub_dot (a b w : Fin 768 → EReal) (β : EReal) (ha : ∀ k, ∃ r : ℝ, a k = (r : EReal))
    (hb : ∀ k, ∃ r : ℝ, b k = (r : EReal)) (hw : ∀ k, ∃ r : ℝ, w k = (r : EReal)) :
    (∑ k, a k * w k) - (∑ k, b k * w k) + β = (∑ k, (a k - b k) * w k) + β :=
  sub_dot_gen a b w β ha hb hw

end Cert.Bridge

end
-- ==== Proof.DequantSpec.lean ====
/-
  The result both programs compute, in each program's arrangement, and why the two arrangements agree.

  With x an 8192 × 4096 matrix, w a 4096 × 4096 matrix of weights, s and z columns of 4096 scales and zero points and β
  a vector of 4096 biases, entry (p, n) of the result is, as the kernel arranges it,
      (0 + Σ_k x(p,k) · w(n,k)) · s(n) − (0 + Σ_k x(p,k)) · (z(n) · s(n)) + β(n),
  and, as the reference arranges it,
      Σ_k x(p,k) · ((w(n,k) − z(n)) · s(n)) + β(n).
  Over the reals these are equal: multiplication distributes over the subtraction inside the sum. Over the extended
  reals distributing needs the factors finite, so the statement asks that x, w, s and z hold real numbers; β is added
  last on both sides and may be anything.
-/
import proofs.«152688_j85804856639527_2_alg».proof.Proof.DequantLaw
import proofs.«152688_j85804856639527_2_alg».proof.Proof.LibSubDot
import Idealize.ShloMosaic.PureOps.Ideal
import Idealize.ShloMosaic.Lib.ValueIdx

noncomputable section

open scoped BigOperators

namespace Cert.DequantSpec

open Idealize.ShloMosaic Idealize.ShloMosaic.ValueIdx

/-- The kernel's arrangement: the raw dot product scaled, minus the row sum times zero point times scale, plus bias. -/
def corrected (X : (⟨2, ![8192, 4096]⟩ : Shape).Idx → EReal) (W : (⟨2, ![4096, 4096]⟩ : Shape).Idx → EReal)
    (S Z : (⟨2, ![4096, 1]⟩ : Shape).Idx → EReal) (B : (⟨1, ![4096]⟩ : Shape).Idx → EReal) :
    (⟨2, ![8192, 4096]⟩ : Shape).Idx → EReal := fun i =>
  (0 + ∑ k : Fin 4096, X (ix2 (i 0) k) * W (ix2 (i 1) k)) * S (ix2 (i 1) (0 : Fin 1))
    - (0 + ∑ k : Fin 4096, X (ix2 (i 0) k)) * (Z (ix2 (i 1) (0 : Fin 1)) * S (ix2 (i 1) (0 : Fin 1)))
    + B (ix1 (i 1))

/-- The reference's arrangement: each weight dequantized, then the dot product, plus bias. -/
def dequantized (X : (⟨2, ![8192, 4096]⟩ : Shape).Idx → EReal) (W : (⟨2, ![4096, 4096]⟩ : Shape).Idx → EReal)
    (S Z : (⟨2, ![4096, 1]⟩ : Shape).Idx → EReal) (B : (⟨1, ![4096]⟩ : Shape).Idx → EReal) :
    (⟨2, ![8192, 4096]⟩ : Shape).Idx → EReal := fun i =>
  (∑ k : Fin 4096, X (ix2 (i 0) k) * ((W (ix2 (i 1) k) - Z (ix2 (i 1) (0 : Fin 1))) * S (ix2 (i 1) (0 : Fin 1))))
    + B (ix1 (i 1))

/-- On real-valued x, w, s, z the two arrangements are one function. -/
theorem corrected_eq_dequantized (X : (⟨2, ![8192, 4096]⟩ : Shape).Idx → EReal)
    (W : (⟨2, ![4096, 4096]⟩ : Shape).Idx → EReal) (S Z : (⟨2, ![4096, 1]⟩ : Shape).Idx → EReal)
    (B : (⟨1, ![4096]⟩ : Shape).Idx → EReal)
    (hX : ∀ i, ∃ r : ℝ, X i = (r : EReal)) (hW : ∀ i, ∃ r : ℝ, W i = (r : EReal))
    (hS : ∀ i, ∃ r : ℝ, S i = (r : EReal)) (hZ : ∀ i, ∃ r : ℝ, Z i = (r : EReal)) :
    corrected X W S Z B = dequantized X W S Z B := by
  choose x hx using hX
  choose w hw using hW
  choose s hs using hS
  choose z hz using hZ
  funext i
  unfold corrected dequantized
  refine congrArg (· + B (ix1 (i 1))) ?_
  have e1 : ∑ k : Fin 4096, X (ix2 (i 0) k) * W (ix2 (i 1) k)
      = ((∑ k : Fin 4096, x (ix2 (i 0) k) * w (ix2 (i 1) k) : ℝ) : EReal) := by
    rw [Cert.Bridge.coe_sum]
    exact Finset.sum_congr rfl fun k _ => by rw [hx, hw, EReal.coe_mul]
  have e2 : ∑ k : Fin 4096, X (ix2 (i 0) k) = ((∑ k : Fin 4096, x (ix2 (i 0) k) : ℝ) : EReal) := by
    rw [Cert.Bridge.coe_sum]
    exact Finset.sum_congr rfl fun k _ => hx _
  have e3 : ∑ k : Fin 4096, X (ix2 (i 0) k) * ((W (ix2 (i 1) k) - Z (ix2 (i 1) (0 : Fin 1))) * S (ix2 (i 1) (0 : Fin 1)))
      = ((∑ k : Fin 4096, x (ix2 (i 0) k) * ((w (ix2 (i 1) k) - z (ix2 (i 1) (0 : Fin 1))) * s (ix2 (i 1) (0 : Fin 1))) : ℝ) : EReal) := by
    rw [Cert.Bridge.coe_sum]
    exact Finset.sum_congr rfl fun k _ => by rw [hx, hw, hz, hs, ← EReal.coe_sub, ← EReal.coe_mul, ← EReal.coe_mul]
  rw [e1, e2, e3, hs, hz, zero_add, zero_add]
  simp only [← EReal.coe_mul, ← EReal.coe_sub]
  exact congrArg _ (Cert.DequantLaw.dot_dequant Finset.univ (fun k => x (ix2 (i 0) k)) (fun k => w (ix2 (i 1) k))
    (z (ix2 (i 1) (0 : Fin 1))) (s (ix2 (i 1) (0 : Fin 1)))).symm

end Cert.DequantSpec

end
-- ==== Proof.KernelResult.lean ====
/-
  The array the kernel's run leaves: entry (p, n) is the corrected dot product of row p of x with row n of the weights.

  The output block at point t covers rows 1024·(t/32)… and columns 1024·((t/8) mod 4)… and is written back exactly
  when t mod 8 = 7, by which time the accumulator holds the whole 4096-term dot product for every entry of the block;
  the correction then uses the block's row sums, scales, zero-point-times-scale products and biases, which are those of
  the same rows and columns. The 32 written blocks tile the 8192 × 4096 array: entry (p, n) lies in the block of the
  point 32·(p/1024) + 8·(n/1024) + 7.
-/
import proofs.«152688_j85804856639527_2_alg».proof.Proof.Accumulated
import proofs.«152688_j85804856639527_2_alg».proof.Proof.DequantSpec

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.LibBlockSum Cert.KernelIdeal.RegionInputs Cert.KernelIdeal.Accumulated
open Cert.DequantSpec

variable (m : (ℓ : Loc nD τ sig) → Buf (Elt Ideal) ℓ) (ρ : Dev nD → PrngReg)

/-- What the result array ends holding, as a function of the five arguments. -/
abbrev target (c : Dev nD) : S8192x4096.Idx → EReal :=
  corrected (argX m c) (weight m c) (argS m c) (argZ m c) (argB m c)

/-- Entry (a, b) of the output block at the last point t of a run is the target at the array index with those
    coordinates inside the block's rows and columns. -/
theorem entry_at_last (c : Dev nD) (t : Fin cfg0.N) (ht : t.val % 8 = 7) (a b : Fin 1024) (i : S8192x4096.Idx)
    (h0 : (i 0).val = 1024 * (t.val / 32) + a.val) (h1 : (i 1).val = 1024 * ((t.val / 8) % 4) + b.val) :
    (outsAt0 m c t.val t.isLt).1 (ix2 a b) = target m c i := by
  rw [out_eq_finish m c t ht]
  refine (PayloadAt.finish_apply (outsAt0 m c t.val t.isLt).2 (iblk m c 3 t) (iblk m c 2 t) (iblk m c 4 t)
    (iblk m c 5 t) a b).trans ?_
  rw [scratch_at_last m c t ht a b,
    block_scale m c t (0 : Fin 1) b (ix2 (0 : Fin 1) (i 1)) rfl h1, staged_scale m c (i 1) (0 : Fin 1),
    block_rowsum m c t a (0 : Fin 1) (ix2 (i 0) (0 : Fin 1)) h0 rfl, staged_rowsum m c (i 0) (0 : Fin 1),
    block_zs m c t (0 : Fin 1) b (ix2 (0 : Fin 1) (i 1)) rfl h1, staged_zs m c (i 1) (0 : Fin 1),
    block_bias m c t (0 : Fin 1) b (ix2 (0 : Fin 1) (i 1)) rfl h1, staged_bias m c (i 1) (0 : Fin 1),
    ← h0, ← h1]
  have eX : ∀ k : Fin 4096, ext2 (argX m c) (i 0).val k.val = argX m c (ix2 (i 0) k) := fun k => ext2_ix (argX m c) (i 0) k
  have eW : ∀ k : Fin 4096, ext2 (weight m c) (i 1).val k.val = weight m c (ix2 (i 1) k) := fun k => ext2_ix (weight m c) (i 1) k
  simp only [eX, eW]
  rfl

/-- What a writing point writes back is its block of the target. -/
theorem flushed_eq (c : Dev nD) (t : Fin cfg0.N) (hf : (cfg0.win 6).flush t = true) :
    (dats m 0 c).flushed 6 t = ((cfg0.win 6).blk t).view.read (Elt Ideal) (target m c) := by
  have ht : t.val % 8 = 7 := by
    have h := writes_back t
    rw [hf] at h
    exact of_decide_eq_true h.symm
  rw [Value.flushed6 m c t]
  funext y
  obtain ⟨a, b, rfl⟩ : ∃ (a b : Fin 1024), y = (ix2 a b : S1024x1024.Idx) :=
    ⟨y 0, y 1, eq_ix2 (n0 := 1024) (n1 := 1024) y⟩
  show (outsAt0 m c t.val t.isLt).1 (ix2 a b) = target m c (((cfg0.win 6).blk t).view.emb (ix2 a b))
  refine entry_at_last m c t ht a b _ ?_ ?_
  · show win0_6.index t (0 : Fin 2) * 1024 + 1 * a.val = _
    rw [(at_out t).1]; omega
  · show win0_6.index t (1 : Fin 2) * 1024 + 1 * b.val = _
    rw [(at_out t).2]; omega

/-- Every entry of the array lies in the block of a writing point. -/
theorem cover (i : S8192x4096.Idx) :
    ∃ t : Fin cfg0.N, (cfg0.win 6).flush t = true ∧ i ∈ ((cfg0.win 6).blk t).view.set := by
  have hi0 : (i 0).val < 8192 := idx2_lt0 i
  have hi1 : (i 1).val < 4096 := idx2_lt1 i
  have hN : cfg0.N = 256 := N_0
  obtain ⟨tv, htv⟩ : ∃ tv : ℕ, tv = 32 * ((i 0).val / 1024) + 8 * ((i 1).val / 1024) + 7 := ⟨_, rfl⟩
  have hlt : tv < cfg0.N := by rw [hN]; omega
  refine ⟨⟨tv, hlt⟩, ?_, ?_⟩
  · rw [writes_back]
    exact decide_eq_true (by show tv % 8 = 7; omega)
  · show i ∈ ((View.whole main_v8).slice (win0_6.rect ⟨tv, hlt⟩)).set
    rw [View.set_slice_whole, Rect.mem_set_unit]
    intro a
    match a with
    | ⟨0, _⟩ =>
      show win0_6.index ⟨tv, hlt⟩ (0 : Fin 2) * 1024 ≤ (i 0).val ∧ (i 0).val < win0_6.index ⟨tv, hlt⟩ (0 : Fin 2) * 1024 + 1024
      rw [(at_out ⟨tv, hlt⟩).1]
      show tv / 32 * 1024 ≤ (i 0).val ∧ (i 0).val < tv / 32 * 1024 + 1024
      omega
    | ⟨1, _⟩ =>
      show win0_6.index ⟨tv, hlt⟩ (1 : Fin 2) * 1024 ≤ (i 1).val ∧ (i 1).val < win0_6.index ⟨tv, hlt⟩ (1 : Fin 2) * 1024 + 1024
      rw [(at_out ⟨tv, hlt⟩).2]
      show tv / 8 % 4 * 1024 ≤ (i 1).val ∧ (i 1).val < tv / 8 % 4 * 1024 + 1024
      omega

/-- The result array after the run. -/
theorem final (c : Dev nD) : (dats m 0 c).arrAt 6 cfg0.N = target m c :=
  (dats m 0 c).arrAt_eq_of_cover 6 (target m c) (flushed_eq m c) cover

/-- The kernel's run: it terminates with the result array at the target and the arguments unchanged. -/
theorem run : θ_run defs (onTc (τ := τ) (main (F := Ideal))) ⟨m, fun _ => 0, ρ⟩ fun r => ∀ c : Dev nD,
      r.2.mem ((c : Thread nD τ).loc main_v8) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefResult.lean ====
/-
  The reference's result, stage by stage, is the dequantize-then-multiply arrangement of the specification.

  The reference converts the integer weights to reals, subtracts each row's zero point and multiplies by its scale (both
  columns spread along the row), contracts x with the result along the shared 4096 positions, and adds the bias spread
  down the rows. Read at an entry (p, n) that is Σ_k x(p,k) · ((w(n,k) − z(n)) · s(n)) + β(n).
-/
import proofs.«152688_j85804856639527_2_alg».proof.Proof.Gen.ReferenceIdeal.Read
import proofs.«152688_j85804856639527_2_alg».proof.Proof.DequantSpec

noncomputable section

open scoped BigOperators
open Idealize.ShloMosaic Idealize.ShloMosaic.ValueIdx

namespace Cert.ReferenceIdeal.RefResult

open Cert.ReferenceIdeal Cert.ReferenceIdeal.Read Cert.DequantSpec

/-- The last stage of the reference is the dequantized arrangement of its five arguments. -/
theorem stage_eq (x0 : (⟨S8192x4096, .f32⟩ : BufTy).Contents (Elt Ideal)) (x1 : (⟨S4096x4096, .i32⟩ : BufTy).Contents (Elt Ideal))
    (x2 x3 : (⟨S4096x1, .f32⟩ : BufTy).Contents (Elt Ideal)) (x4 : (⟨S4096, .f32⟩ : BufTy).Contents (Elt Ideal)) :
    val_main_v8 (F := Ideal) x0 x1 x2 x3 x4 = dequantized x0 (sitofp (F := Ideal) .bf16 x1) x2 x3 x4 := by
  funext i
  obtain ⟨p, n, rfl⟩ : ∃ (p : Fin 8192) (n : Fin 4096), i = (ix2 p n : S8192x4096.Idx) := ⟨i 0, i 1, eq_ix2 i⟩
  have el : ∀ k : Fin 4096, lidx_main_v5 (ix2 p n) k = ix2 p k := fun k => funext fun a => Fin.ext (by
    match a with
    | ⟨0, _⟩ => rfl
    | ⟨1, _⟩ => rfl)
  have er : ∀ k : Fin 4096, ridx_main_v5 (ix2 p n) k = ix2 n k := fun k => funext fun a => Fin.ext (by
    match a with
    | ⟨0, _⟩ => rfl
    | ⟨1, _⟩ => rfl)
  have e1 : ∀ k : Fin 4096, idx_main_v1 (ix2 n k) = ix2 n (0 : Fin 1) := fun k => funext fun a => Fin.ext (by
    match a with
    | ⟨0, _⟩ => rfl
    | ⟨1, _⟩ => rfl)
  have e3 : ∀ k : Fin 4096, idx_main_v3 (ix2 n k) = ix2 n (0 : Fin 1) := fun k => funext fun a => Fin.ext (by
    match a with
    | ⟨0, _⟩ => rfl
    | ⟨1, _⟩ => rfl)
  have e6 : idx_main_v6 (idx_main_v7 (ix2 p n)) = ix1 n := funext fun a => Fin.ext (by
    match a with
    | ⟨0, _⟩ => rfl)
  show _ = (∑ k : Fin 4096, x0 (ix2 p k)
      * ((sitofp (F := Ideal) .bf16 x1 (ix2 n k) - x3 (ix2 n (0 : Fin 1))) * x2 (ix2 n (0 : Fin 1)))) + x4 (ix1 n)
  rw [val_main_v8_apply, val_main_v5_apply, val_main_v7_apply, val_main_v6_apply, e6]
  show (∑ k : Fin 4096, x0 (lidx_main_v5 (ix2 p n) k) * val_main_v4 (F := Ideal) x1 x2 x3 (ridx_main_v5 (ix2 p n) k))
      + x4 (ix1 n) = _
  refine congrArg (· + x4 (ix1 n)) (Finset.sum_congr rfl fun k _ => ?_)
  rw [el, er, val_main_v4_apply, val_main_v2_apply, val_main_v3_apply, val_main_v1_apply, val_main_v0_apply, e1, e3]
  rfl

end Cert.ReferenceIdeal.RefResult

end
-- ==== Proof.FiniteEntry.lean ====
/-
  One entry passing the finiteness test is a real number.

  The test compares the absolute value of the entry with +∞ (the word 0x7F800000): over the extended reals the absolute
  value of either infinity is +∞, which is not below +∞, so an entry that passes is neither infinity.
-/
import Idealize.ShloMosaic.PureOps.Ideal
import Idealize.ShloMosaic.PureOps.Ideal.Laws

noncomputable section

namespace Cert.FiniteEntry

open Idealize.ShloMosaic

/-- The word 0x7F800000 denotes +∞. -/
theorem inf_word : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | top => simp at h
  | coe r => exact ⟨r, rfl⟩

/-- The comparison word of the test is 1 exactly when the absolute value is below +∞. -/
theorem real_of_test (x : Ideal .f32)
    (h : FloatOps.cmpf .olt (FloatOps.absf x) (Ideal.ofBits .f32 0x7F800000#32) = 1#1) : ∃ r : ℝ, x = (r : EReal) := by
  rw [Ideal.cmpf_def, Ideal.absf_def, inf_word] at h
  refine real_of_abs_lt_top x ?_
  by_contra hn
  simp [Ideal.cmp, hn] at h

end Cert.FiniteEntry

end
-- ==== Proof.FromPre.lean ====
/-
  From the precondition to real numbers.

  The precondition is the conjunction of four tests, one per float argument, each saying that every entry of the
  argument has absolute value below +∞. An entry that passes is a real number. The law joining the two programs uses
  this of x, scale and zero_point.
-/
import proofs.«152688_j85804856639527_2_alg».proof.Defs
import proofs.«152688_j85804856639527_2_alg».proof.Proof.Gen.KernelIdeal
import proofs.«152688_j85804856639527_2_alg».proof.Proof.Gen.Pre_finite_inputs
import proofs.«152688_j85804856639527_2_alg».proof.Proof.FiniteEntry
import Idealize.ShloMosaic.Lib.ReduceAll
import Idealize.ShloMosaic.Lib.ValueIdx

noncomputable section

open Idealize.ShloMosaic Idealize.SL.Sem

namespace Cert.KernelIdeal.FromPre

open Cert.KernelIdeal

/-- A rank-0 array has one index. -/
instance : Subsingleton Cert.Pre_finite_inputs.S_.Idx := ⟨fun a b => funext fun d => d.elim0⟩

/-- Under the precondition every entry of x, of scale and of zero_point is a real number. -/
theorem reals_of_pre (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg2) i = (r : EReal))
    ∧ (∀ i, ∃ r : ℝ, m ((c.tc : Thread nD τ).loc main_arg3) i = (r : EReal)) := by
  have h0 := congrFun (h c) ValueIdx.ix0
  dsimp only [Cert.Pre_finite_inputs.fn, Cert.Pre_finite_inputs.fn_part1] at h0
  obtain ⟨h13, -⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · exact Cert.FiniteEntry.real_of_test _ (Host.reduce_andi_all _ _ _ _ ValueIdx.ix0 h3 i)
  · exact Cert.FiniteEntry.real_of_test _ (Host.reduce_andi_all _ _ _ _ ValueIdx.ix0 h7 i)
  · exact Cert.FiniteEntry.real_of_test _ (Host.reduce_andi_all _ _ _ _ ValueIdx.ix0 h12 i)

end Cert.KernelIdeal.FromPre

end
-- ==== Proof.lean ====
/-
  A dequantizing matrix product, computed two ways, is one function of its inputs over the extended reals.

  Inputs: x, 8192 × 4096 reals; integer weights q, 4096 × 4096; per-output scale s and zero point z, 4096 each; bias β,
  4096. The reference dequantizes every weight, w'(n,k) = (q(n,k) − z(n)) · s(n), and returns x · w'ᵀ + β. The kernel
  never forms w': it contracts x with the raw weights in eight blocks of 512 positions, accumulating in a scratch
  buffer that lives across the grid's innermost axis, and at the last block corrects the finished product by a
  rank-one term built from the row sums of x: (x · qᵀ)(p,n) · s(n) − (Σ_k x(p,k)) · (z(n) · s(n)) + β(n).

  The proof has three parts. (1) The kernel's run leaves exactly that corrected expression at every entry: what each
  case of the body leaves (Proof/CaseLeaves), its arithmetic at an entry (Proof/PayloadAt), the arrays and blocks the
  region reads (Proof/RegionInputs), the accumulator over a run of eight points as one 4096-term sum
  (Proof/Accumulated), and the written blocks tiling the result (Proof/KernelResult). (2) The reference's run leaves
  the dequantize-then-multiply expression (Proof/RefResult). (3) The two expressions agree when x, s and z hold real
  numbers (Proof/DequantSpec over Proof/DequantLaw): multiplication distributes over the subtraction inside the sum,
  which is true of reals and not of infinities; the precondition supplies exactly that (Proof/FromPre over
  Proof/FiniteEntry). The weights are integers read as reals, so they are real whatever the precondition says, and the
  bias is added last on both sides, so its finiteness is not used.

  The three frame claims are the generated frame runs, and the idealized kernel is the printed kernel's own text read
  over the extended reals, so there is nothing to preserve.
-/
import proofs.«152688_j85804856639527_2_alg».proof.Defs
import proofs.«152688_j85804856639527_2_alg».proof.Proof.Gen.Kernel
import proofs.«152688_j85804856639527_2_alg».proof.Proof.Gen.Kernel.Skeleton
import proofs.«152688_j85804856639527_2_alg».proof.Proof.Gen.Kernel.Launch
import proofs.«152688_j85804856639527_2_alg».proof.Proof.Gen.Kernel.Points
import proofs.«152688_j85804856639527_2_alg».proof.Proof.Gen.Kernel.Frame
import proofs.«152688_j85804856639527_2_alg».proof.Proof.Gen.KernelIdeal
import proofs.«152688_j85804856639527_2_alg».proof.Proof.Gen.KernelIdeal.Skeleton
import proofs.«152688_j85804856639527_2_alg».proof.Proof.Gen.KernelIdeal.Launch
import proofs.«152688_j85804856639527_2_alg».proof.Proof.Gen.KernelIdeal.Points
import proofs.«152688_j85804856639527_2_alg».proof.Proof.Gen.KernelIdeal.Frame
import proofs.«152688_j85804856639527_2_alg».proof.Proof.Gen.ReferenceIdeal
import proofs.«152688_j85804856639527_2_alg».proof.Proof.Gen.KernelIdeal.Value
import proofs.«152688_j85804856639527_2_alg».proof.Proof.Gen.ReferenceIdeal.Run
import proofs.«152688_j85804856639527_2_alg».proof.Proof.Gen.ReferenceIdeal.Read
import proofs.«152688_j85804856639527_2_alg».proof.Proof.Gen.Pre_finite_inputs
import proofs.«152688_j85804856639527_2_alg».proof.Proof.KernelResult
import proofs.«152688_j85804856639527_2_alg».proof.Proof.RefResult
import proofs.«152688_j85804856639527_2_alg».proof.Proof.FromPre
import Idealize.ShloMosaic.Adequacy
import Idealize.ShloMosaic.Init

noncomputable section

namespace Cert.Proof

open Idealize.ShloMosaic Idealize.SL.Sem

/-- The printed kernel, read at the machine's words, runs to the end and leaves its arguments as they were. -/
theorem frame_word : Cert.frame_Kernel := fun m ρ _ => Cert.Kernel.Gen.frame m ρ

/-- So does the same text read over the extended reals. -/
theorem frame_ideal : Cert.frame_KernelIdeal := fun m ρ _ => Cert.KernelIdeal.Gen.frame m ρ

/-- The reference is a straight line of host operations: its run, with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- From inputs that agree, both runs end with the corrected dot product at every entry: the kernel by construction,
    the reference because on real x, scale and zero point its dequantize-then-multiply expression is the same number. -/
theorem algebraic : Cert.algebraic_KernelIdeal_ReferenceIdeal := by
  intro m ρ m' ρ' hpre hagree
  refine ⟨fun c => Cert.KernelIdeal.Result.target m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hS, hZ⟩ := Cert.KernelIdeal.FromPre.reals_of_pre m hpre c
  rw [Cert.ReferenceIdeal.Read.val_main_v8_eq, Cert.ReferenceIdeal.RefResult.stage_eq,
    (hagree c).1, (hagree c).2.1, (hagree c).2.2.1, (hagree c).2.2.2.1, (hagree c).2.2.2.2]
  exact (Cert.DequantSpec.corrected_eq_dequantized _ _ _ _ _ hX (fun i => ⟨_, rfl⟩) hS hZ).symm

theorem claim : Cert.Claim :=
  ⟨Cert.Kernel.Gen.facts, Cert.KernelIdeal.Gen.facts, Cert.ReferenceIdeal.Gen.facts, Cert.Pre_finite_inputs.Gen.facts,
    frame_word, frame_ideal, frame_ref, trivial, algebraic⟩

end Cert.Proof

end
